-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024x1024 .f32) (main_arg13 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S32768x1024 .f32) (main_arg1 : FVec F S32768x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S32768x1024 : Shape := ⟨2, ![32768, 1024]⟩
abbrev S1024x1024 : Shape := ⟨2, ![1024, 1024]⟩
abbrev S1024 : Shape := ⟨1, ![1024]⟩
abbrev S2048x1024 : Shape := ⟨2, ![2048, 1024]⟩
abbrev S1024x2048 : Shape := ⟨2, ![1024, 2048]⟩
abbrev S2048 : Shape := ⟨1, ![2048]⟩
abbrev S1x2048 : Shape := ⟨2, ![1, 2048]⟩
abbrev S1x1024 : Shape := ⟨2, ![1, 1024]⟩
abbrev S512x1024 : Shape := ⟨2, ![512, 1024]⟩
abbrev S512x2048 : Shape := ⟨2, ![512, 2048]⟩

abbrev nBuf : Space → Nat
  | .hbm => 31
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S2048x1024, .f32⟩
  | .hbm, ⟨15, _⟩ => ⟨S2048x1024, .f32⟩
  | .hbm, ⟨16, _⟩ => ⟨S1024x2048, .f32⟩
  | .hbm, ⟨17, _⟩ => ⟨S1024x2048, .bf16⟩
  | .hbm, ⟨18, _⟩ => ⟨S1024x2048, .f32⟩
  | .hbm, ⟨19, _⟩ => ⟨S1024x2048, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S1x1024, .f32⟩
  | .hbm, ⟨29, _⟩ => ⟨S1x1024, .f32⟩
  | .hbm, ⟨30, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x2048, .bf16⟩
  | .local _ .vmem, ⟨5, _⟩ => ⟨S1024x1024, .bf16⟩
  | .local _ .vmem, ⟨6, _⟩ => ⟨S1024x2048, .bf16⟩
  | .local _ .vmem, ⟨7, _⟩ => ⟨S1024x1024, .bf16⟩
  | .local _ .vmem, ⟨8, _⟩ => ⟨S1x2048, .f32⟩
  | .local _ .vmem, ⟨9, _⟩ => ⟨S1x1024, .f32⟩
  | .local _ .vmem, ⟨10, _⟩ => ⟨S1x2048, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S1024x1024_S1024x1024_S2048x1024_d0 : Shape.Concatenates [S1024x1024, S1024x1024] S2048x1024 0
  transposes_S2048x1024_S1024x2048_1_0 : S2048x1024.Transposes [1, 0] S1024x2048
  bitsLt_bf16_f32 : FTy.bits .bf16 < FTy.bits .f32
  transposes_S1024x1024_S1024x1024_1_0 : S1024x1024.Transposes [1, 0] S1024x1024
  concatenates_S1024_S1024_S2048_d0 : Shape.Concatenates [S1024, S1024] S2048 0
  shapeCasts_S2048_S1x2048 : S2048.ShapeCasts S1x2048
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x2048_S512x2048_1_0_0_1_n_n_wf : DotDims.WF S512x1024 S1024x2048 S512x2048 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S32768x1024.size a
  hwx0_10 : ∀ i : grid0.Coords, EltTy.bits .f32 = 32 ∨ (Rect.block (s := S32768x1024) S512x1024.size (cc0_transform_10 i) (hinb0_10 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S512x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S1024x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S1024x1024, .f32⟩
  | .hbm, ⟨34, _⟩ => ⟨S32768x1024, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S1024x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768x1024, .f32⟩
  | .hbm, ⟨51, _⟩ => ⟨S32768x1024, .f32⟩
  | .hbm, ⟨52, _⟩ => ⟨S1024x1024, .f32⟩
  | .hbm, ⟨53, _⟩ => ⟨S32768x1024, .f32⟩
  | .hbm, ⟨54, _⟩ => ⟨S1x1024, .f32⟩
  | .hbm, ⟨55, _⟩ => ⟨S32768x1024, .f32⟩
  | .hbm, ⟨56, _⟩ => ⟨S32768x1024, .f32⟩
  | .hbm, ⟨57, _⟩ => ⟨S1024x1024, .f32⟩
  | .hbm, ⟨58, _⟩ => ⟨S32768x1024, .f32⟩
  | .hbm, ⟨59, _⟩ => ⟨S1x1024, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S_, .f32⟩
  | .hbm, ⟨66, _⟩ => ⟨S32768x1024, .f32⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_3 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  dot_S32768x1024_S1024x1024_S32768x1024_1_0_0_1_n_n_wf : DotDims.WF S32768x1024 S1024x1024 S32768x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.CellSpec.lean ====
/-
  The gated recurrent cell as one function of its fourteen arrays, entry by entry, on the extended reals.

  With x the input and h the previous state, both of 32768 rows of 1024 entries, and for each of the six weight
  matrices W (1024 by 1024) and bias vectors b (1024):
      lin X W b (p, q) = (sum over k of X (p, k) * W (q, k)) + b q          -- row p of X against row q of W
      r = logistic (lin x W_ir b_ir + lin h W_hr b_hr)
      z = logistic (lin x W_iz b_iz + lin h W_hz b_hz)
      n = tanh (lin x W_in b_in + r * lin h W_hn b_hn)
      out = (1 - z) * n + z * h
  The one in the last line is kept as the single-precision word of 1.0 that both programs carry; no law of the
  extended reals beyond the definitions is used anywhere, so the inputs may be infinite.
-/
import Idealize.ShloMosaic.PureOps.Ideal
import Idealize.ShloMosaic.Lib.ValueIdx

noncomputable section

namespace Cert.Cell

open Idealize.ShloMosaic Idealize.ShloMosaic.ValueIdx

/-- Rows by features: the input, the previous state and the result. -/
abbrev SB : Shape := ⟨2, ![32768, 1024]⟩
/-- One weight matrix, output feature by input feature. -/
abbrev SW : Shape := ⟨2, ![1024, 1024]⟩
/-- One bias vector. -/
abbrev SV : Shape := ⟨1, ![1024]⟩

/-- One affine map at row `p`, output feature `q`: row `p` of `X` against row `q` of `W`, plus the bias at `q`. -/
def lin (X : SB.Idx → EReal) (W : SW.Idx → EReal) (b : SV.Idx → EReal) (p : Fin 32768) (q : Fin 1024) : EReal :=
  (∑ k : Fin 1024, X (ix2 p k) * W (ix2 q k)) + b (ix1 q)

/-- A gate: the logistic function of the sum of the input-side and the state-side affine maps. -/
def gate (x h : SB.Idx → EReal) (Wi : SW.Idx → EReal) (bi : SV.Idx → EReal) (Wh : SW.Idx → EReal) (bh : SV.Idx → EReal)
    (p : Fin 32768) (q : Fin 1024) : EReal :=
  Ideal.logistic (lin x Wi bi p q + lin h Wh bh p q)

/-- The candidate state: `tanh` of the input-side map plus the reset gate times the state-side map. -/
def cand (x h : SB.Idx → EReal) (Wir : SW.Idx → EReal) (bir : SV.Idx → EReal) (Whr : SW.Idx → EReal) (bhr : SV.Idx → EReal)
    (Win : SW.Idx → EReal) (bin : SV.Idx → EReal) (Whn : SW.Idx → EReal) (bhn : SV.Idx → EReal)
    (p : Fin 32768) (q : Fin 1024) : EReal :=
  Ideal.tanh (lin x Win bin p q + gate x h Wir bir Whr bhr p q * lin h Whn bhn p q)

/-- The new state at row `p`, feature `q`. -/
def cellAt (x h : SB.Idx → EReal) (Wir : SW.Idx → EReal) (bir : SV.Idx → EReal) (Whr : SW.Idx → EReal) (bhr : SV.Idx → EReal)
    (Wiz : SW.Idx → EReal) (biz : SV.Idx → EReal) (Whz : SW.Idx → EReal) (bhz : SV.Idx → EReal)
    (Win : SW.Idx → EReal) (bin : SV.Idx → EReal) (Whn : SW.Idx → EReal) (bhn : SV.Idx → EReal)
    (p : Fin 32768) (q : Fin 1024) : EReal :=
  (Ideal.ofBits .f32 0x3F800000#32 - gate x h Wiz biz Whz bhz p q) * cand x h Wir bir Whr bhr Win bin Whn bhn p q
    + gate x h Wiz biz Whz bhz p q * h (ix2 p q)

/-- The new state as one array. -/
def cell (x h : SB.Idx → EReal) (Wir : SW.Idx → EReal) (bir : SV.Idx → EReal) (Whr : SW.Idx → EReal) (bhr : SV.Idx → EReal)
    (Wiz : SW.Idx → EReal) (biz : SV.Idx → EReal) (Whz : SW.Idx → EReal) (bhz : SV.Idx → EReal)
    (Win : SW.Idx → EReal) (bin : SV.Idx → EReal) (Whn : SW.Idx → EReal) (bhn : SV.Idx → EReal) : SB.Idx → EReal :=
  fun i => cellAt x h Wir bir Whr bhr Wiz biz Whz bhz Win bin Whn bhn (i 0) (i 1)

end Cert.Cell

end
-- ==== Proof.RefCell.lean ====
/-
  The reference program computes the gated recurrent cell.

  The reference writes each of the six affine maps as a matrix product of the rows of X against the transposed weight
  matrix, plus the bias broadcast over the rows; each gate as 1 / (1 + exp (-(a + b))); the candidate as
  tanh (a + r * b); and the result as (1 - z) * n + z * h. Read at the index (p, q), each stage is the matching
  function of Cert.Cell: the transposition and the two broadcasts only rename indices, and the quotient spelling of
  the logistic function is the library's definition once the single-precision word of 1.0 inside it is read as one.
-/
import proofs.«176661_j78039555768457_2_alg».proof.Proof.Gen.ReferenceIdeal.Read
import proofs.«176661_j78039555768457_2_alg».proof.Proof.CellSpec
import Idealize.ShloMosaic.Lib.IdealHost
import Idealize.ShloMosaic.Lib.ValueIdx

noncomputable section

namespace Cert.RefCell

open Idealize.ShloMosaic Idealize.ShloMosaic.ValueIdx Cert.ReferenceIdeal Cert.ReferenceIdeal.Read

/-- The logistic function as the reference spells it: the quotient of the word of 1.0 by that word plus exp (-t). -/
theorem logistic_spelled (t : EReal) :
    Ideal.div (Ideal.ofBits .f32 0x3F800000#32) (Ideal.ofBits .f32 0x3F800000#32 + Ideal.exp (-t)) = Ideal.logistic t := by
  rw [Ideal.ofBits_one_f32]; rfl

/-! ## Index equations: the left operand of each product is read at (p, k), the transposed weight at (q, k), and the
    twice-broadcast bias at q. -/

theorem lidx_ir (p : Fin 32768) (q k : Fin 1024) : lidx_main_v1 (ix2 p q) k = ix2 p k :=
  funext fun a => Fin.ext (by match a with | ⟨0, _⟩ => rfl | ⟨1, _⟩ => rfl)
theorem ridx_ir (p : Fin 32768) (q k : Fin 1024) : idx_main_v0 (ridx_main_v1 (ix2 p q) k) = ix2 q k :=
  funext fun a => Fin.ext (by match a with | ⟨0, _⟩ => rfl | ⟨1, _⟩ => rfl)
theorem bidx_ir (p : Fin 32768) (q : Fin 1024) : idx_main_v2 (idx_main_v3 (ix2 p q)) = ix1 q :=
  funext fun a => Fin.ext (by match a with | ⟨0, _⟩ => rfl)

theorem lidx_hr (p : Fin 32768) (q k : Fin 1024) : lidx_main_v6 (ix2 p q) k = ix2 p k :=
  funext fun a => Fin.ext (by match a with | ⟨0, _⟩ => rfl | ⟨1, _⟩ => rfl)
theorem ridx_hr (p : Fin 32768) (q k : Fin 1024) : idx_main_v5 (ridx_main_v6 (ix2 p q) k) = ix2 q k :=
  funext fun a => Fin.ext (by match a with | ⟨0, _⟩ => rfl | ⟨1, _⟩ => rfl)
theorem bidx_hr (p : Fin 32768) (q : Fin 1024) : idx_main_v7 (idx_main_v8 (ix2 p q)) = ix1 q :=
  funext fun a => Fin.ext (by match a with | ⟨0, _⟩ => rfl)

theorem lidx_iz (p : Fin 32768) (q k : Fin 1024) : lidx_main_v18 (ix2 p q) k = ix2 p k :=
  funext fun a => Fin.ext (by match a with | ⟨0, _⟩ => rfl | ⟨1, _⟩ => rfl)
theorem ridx_iz (p : Fin 32768) (q k : Fin 1024) : idx_main_v17 (ridx_main_v18 (ix2 p q) k) = ix2 q k :=
  funext fun a => Fin.ext (by match a with | ⟨0, _⟩ => rfl | ⟨1, _⟩ => rfl)
theorem bidx_iz (p : Fin 32768) (q : Fin 1024) : idx_main_v19 (idx_main_v20 (ix2 p q)) = ix1 q :=
  funext fun a => Fin.ext (by match a with | ⟨0, _⟩ => rfl)

theorem lidx_hz (p : Fin 32768) (q k : Fin 1024) : lidx_main_v23 (ix2 p q) k = ix2 p k :=
  funext fun a => Fin.ext (by match a with | ⟨0, _⟩ => rfl | ⟨1, _⟩ => rfl)
theorem ridx_hz (p : Fin 32768) (q k : Fin 1024) : idx_main_v22 (ridx_main_v23 (ix2 p q) k) = ix2 q k :=
  funext fun a => Fin.ext (by match a with | ⟨0, _⟩ => rfl | ⟨1, _⟩ => rfl)
theorem bidx_hz (p : Fin 32768) (q : Fin 1024) : idx_main_v24 (idx_main_v25 (ix2 p q)) = ix1 q :=
  funext fun a => Fin.ext (by match a with | ⟨0, _⟩ => rfl)

theorem lidx_in (p : Fin 32768) (q k : Fin 1024) : lidx_main_v35 (ix2 p q) k = ix2 p k :=
  funext fun a => Fin.ext (by match a with | ⟨0, _⟩ => rfl | ⟨1, _⟩ => rfl)
theorem ridx_in (p : Fin 32768) (q k : Fin 1024) : idx_main_v34 (ridx_main_v35 (ix2 p q) k) = ix2 q k :=
  funext fun a => Fin.ext (by match a with | ⟨0, _⟩ => rfl | ⟨1, _⟩ => rfl)
theorem bidx_in (p : Fin 32768) (q : Fin 1024) : idx_main_v36 (idx_main_v37 (ix2 p q)) = ix1 q :=
  funext fun a => Fin.ext (by match a with | ⟨0, _⟩ => rfl)

theorem lidx_hn (p : Fin 32768) (q k : Fin 1024) : lidx_main_v40 (ix2 p q) k = ix2 p k :=
  funext fun a => Fin.ext (by match a with | ⟨0, _⟩ => rfl | ⟨1, _⟩ => rfl)
theorem ridx_hn (p : Fin 32768) (q k : Fin 1024) : idx_main_v39 (ridx_main_v40 (ix2 p q) k) = ix2 q k :=
  funext fun a => Fin.ext (by match a with | ⟨0, _⟩ => rfl | ⟨1, _⟩ => rfl)
theorem bidx_hn (p : Fin 32768) (q : Fin 1024) : idx_main_v41 (idx_main_v42 (ix2 p q)) = ix1 q :=
  funext fun a => Fin.ext (by match a with | ⟨0, _⟩ => rfl)

/-! ## The six affine maps -/

theorem lin_ir (x0 : (⟨S32768x1024, .f32⟩ : BufTy).Contents (Elt Ideal)) (x2 : (⟨S1024x1024, .f32⟩ : BufTy).Contents (Elt Ideal)) (x3 : (⟨S1024, .f32⟩ : BufTy).Contents (Elt Ideal)) (p : Fin 32768) (q : Fin 1024) :
    val_main_v4 (F := Ideal) x0 x2 x3 (ix2 p q) = Cert.Cell.lin x0 x2 x3 p q := by
  rw [val_main_v4_apply, val_main_v1_apply, val_main_v3_apply, val_main_v2_apply, bidx_ir, Ideal.addf_def]
  simp only [val_main_v0_apply, lidx_ir, ridx_ir]
  rfl

theorem lin_hr (x1 : (⟨S32768x1024, .f32⟩ : BufTy).Contents (Elt Ideal)) (x4 : (⟨S1024x1024, .f32⟩ : BufTy).Contents (Elt Ideal)) (x5 : (⟨S1024, .f32⟩ : BufTy).Contents (Elt Ideal)) (p : Fin 32768) (q : Fin 1024) :
    val_main_v9 (F := Ideal) x1 x4 x5 (ix2 p q) = Cert.Cell.lin x1 x4 x5 p q := by
  rw [val_main_v9_apply, val_main_v6_apply, val_main_v8_apply, val_main_v7_apply, bidx_hr, Ideal.addf_def]
  simp only [val_main_v5_apply, lidx_hr, ridx_hr]
  rfl

theorem lin_iz (x0 : (⟨S32768x1024, .f32⟩ : BufTy).Contents (Elt Ideal)) (x6 : (⟨S1024x1024, .f32⟩ : BufTy).Contents (Elt Ideal)) (x7 : (⟨S1024, .f32⟩ : BufTy).Contents (Elt Ideal)) (p : Fin 32768) (q : Fin 1024) :
    val_main_v21 (F := Ideal) x0 x6 x7 (ix2 p q) = Cert.Cell.lin x0 x6 x7 p q := by
  rw [val_main_v21_apply, val_main_v18_apply, val_main_v20_apply, val_main_v19_apply, bidx_iz, Ideal.addf_def]
  simp only [val_main_v17_apply, lidx_iz, ridx_iz]
  rfl

theorem lin_hz (x1 : (⟨S32768x1024, .f32⟩ : BufTy).Contents (Elt Ideal)) (x8 : (⟨S1024x1024, .f32⟩ : BufTy).Contents (Elt Ideal)) (x9 : (⟨S1024, .f32⟩ : BufTy).Contents (Elt Ideal)) (p : Fin 32768) (q : Fin 1024) :
    val_main_v26 (F := Ideal) x1 x8 x9 (ix2 p q) = Cert.Cell.lin x1 x8 x9 p q := by
  rw [val_main_v26_apply, val_main_v23_apply, val_main_v25_apply, val_main_v24_apply, bidx_hz, Ideal.addf_def]
  simp only [val_main_v22_apply, lidx_hz, ridx_hz]
  rfl

theorem lin_in (x0 : (⟨S32768x1024, .f32⟩ : BufTy).Contents (Elt Ideal)) (x10 : (⟨S1024x1024, .f32⟩ : BufTy).Contents (Elt Ideal)) (x11 : (⟨S1024, .f32⟩ : BufTy).Contents (Elt Ideal)) (p : Fin 32768) (q : Fin 1024) :
    val_main_v38 (F := Ideal) x0 x10 x11 (ix2 p q) = Cert.Cell.lin x0 x10 x11 p q := by
  rw [val_main_v38_apply, val_main_v35_apply, val_main_v37_apply, val_main_v36_apply, bidx_in, Ideal.addf_def]
  simp only [val_main_v34_apply, lidx_in, ridx_in]
  rfl

theorem lin_hn (x1 : (⟨S32768x1024, .f32⟩ : BufTy).Contents (Elt Ideal)) (x12 : (⟨S1024x1024, .f32⟩ : BufTy).Contents (Elt Ideal)) (x13 : (⟨S1024, .f32⟩ : BufTy).Contents (Elt Ideal)) (p : Fin 32768) (q : Fin 1024) :
    val_main_v43 (F := Ideal) x1 x12 x13 (ix2 p q) = Cert.Cell.lin x1 x12 x13 p q := by
  rw [val_main_v43_apply, val_main_v40_apply, val_main_v42_apply, val_main_v41_apply, bidx_hn, Ideal.addf_def]
  simp only [val_main_v39_apply, lidx_hn, ridx_hn]
  rfl

/-! ## The two gates, the candidate and the cell -/

theorem gate_r (x0 : (⟨S32768x1024, .f32⟩ : BufTy).Contents (Elt Ideal)) (x1 : (⟨S32768x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (p : Fin 32768) (q : Fin 1024) :
    val_main_v16 (F := Ideal) x0 x1 x2 x3 x4 x5 (ix2 p q) = Cert.Cell.gate x0 x1 x2 x3 x4 x5 p q := by
  rw [val_main_v16_apply, val_main_v15_apply, val_main_cst_0_apply, val_main_v14_apply, val_main_v13_apply, val_main_cst_apply,
    val_main_v12_apply, val_main_v11_apply, val_main_v10_apply, lin_ir, lin_hr]
  simp only [Ideal.hostDivf_def, Ideal.ofBits_def, Ideal.addf_def, Ideal.hostUnary_exp_def, Ideal.hostNegf_def, Ideal.negf_def]
  rw [logistic_spelled]
  rfl

theorem gate_z (x0 : (⟨S32768x1024, .f32⟩ : BufTy).Contents (Elt Ideal)) (x1 : (⟨S32768x1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal)) (p : Fin 32768) (q : Fin 1024) :
    val_main_v33 (F := Ideal) x0 x1 x6 x7 x8 x9 (ix2 p q) = Cert.Cell.gate x0 x1 x6 x7 x8 x9 p q := by
  rw [val_main_v33_apply, val_main_v32_apply, val_main_cst_2_apply, val_main_v31_apply, val_main_v30_apply, val_main_cst_1_apply,
    val_main_v29_apply, val_main_v28_apply, val_main_v27_apply, lin_iz, lin_hz]
  simp only [Ideal.hostDivf_def, Ideal.ofBits_def, Ideal.addf_def, Ideal.hostUnary_exp_def, Ideal.hostNegf_def, Ideal.negf_def]
  rw [logistic_spelled]
  rfl

theorem cand_n (x0 : (⟨S32768x1024, .f32⟩ : BufTy).Contents (Elt Ideal)) (x1 : (⟨S32768x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x10 : (⟨S1024x1024, .f32⟩ : BufTy).Contents (Elt Ideal)) (x11 : (⟨S1024, .f32⟩ : BufTy).Contents (Elt Ideal)) (x12 : (⟨S1024x1024, .f32⟩ : BufTy).Contents (Elt Ideal)) (x13 : (⟨S1024, .f32⟩ : BufTy).Contents (Elt Ideal)) (p : Fin 32768) (q : Fin 1024) :
    val_main_v46 (F := Ideal) x0 x1 x2 x3 x4 x5 x10 x11 x12 x13 (ix2 p q) = Cert.Cell.cand x0 x1 x2 x3 x4 x5 x10 x11 x12 x13 p q := by
  rw [val_main_v46_apply, val_main_v45_apply, val_main_v44_apply, lin_in, gate_r, lin_hn]
  simp only [Ideal.hostUnary_tanh_def, Ideal.addf_def, Ideal.mulf_def]
  rfl

/-- The reference's result is the cell, as arrays. -/
theorem ref_eq (x0 : (⟨S32768x1024, .f32⟩ : BufTy).Contents (Elt Ideal)) (x1 : (⟨S32768x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal)) (x10 : (⟨S1024x1024, .f32⟩ : BufTy).Contents (Elt Ideal)) (x11 : (⟨S1024, .f32⟩ : BufTy).Contents (Elt Ideal)) (x12 : (⟨S1024x1024, .f32⟩ : BufTy).Contents (Elt Ideal)) (x13 : (⟨S1024, .f32⟩ : BufTy).Contents (Elt Ideal)) :
    Cert.ReferenceIdeal.Read.val_main_v51 (F := Ideal) x0 x1 x2 x3 x4 x5 x6 x7 x8 x9 x10 x11 x12 x13
      = Cert.Cell.cell x0 x1 x2 x3 x4 x5 x6 x7 x8 x9 x10 x11 x12 x13 := by
  funext i
  obtain ⟨p, q, rfl⟩ : ∃ (p : Fin 32768) (q : Fin 1024), i = ix2 p q := ⟨i 0, i 1, eq_ix2 i⟩
  rw [val_main_v51_apply, val_main_v49_apply, val_main_v48_apply, val_main_v47_apply, val_main_cst_3_apply, val_main_v50_apply,
    gate_z, cand_n]
  simp only [Ideal.addf_def, Ideal.mulf_def, Ideal.subf_def, Ideal.ofBits_def]
  rfl

end Cert.RefCell

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.BlockEntry.lean ====
/-
  What the kernel's body leaves in its output block, entry by entry.

  The body loads ten blocks: 512 rows of the input and of the previous state, the two fused 1024-by-2048 weights
  (reset columns then update columns) with their bias rows, and the two 1024-by-1024 candidate weights with theirs. It
  forms the fused gate block logistic ((x W + b) + (h W' + b')) of 2048 columns, takes its left half as the reset gate
  r and its right half as the update gate z, the candidate n = tanh ((x W_n + b_n) + r * (h W'_n + b'_n)), and stores
  (1 - z) * n + z * h. The generated value leg already states that block as one function of the loads with each
  operand read at a closed-form index; here each matrix product (from the zero accumulator, its operands rounded to a
  narrower format, which changes nothing on the extended reals) is read as a sum over the 1024 contracted features, each
  bias row broadcast down the rows as its column, and the result is matched with the cell's formula.
-/
import proofs.«176661_j78039555768457_2_alg».proof.Proof.Gen.KernelIdeal.Value
import proofs.«176661_j78039555768457_2_alg».proof.Proof.LibMatmulRead
import proofs.«176661_j78039555768457_2_alg».proof.Proof.CellSpec
import Idealize.ShloMosaic.Lib.Pipeline.Value
import Idealize.ShloMosaic.Lib.ValueIdx
import Idealize.ShloMosaic.Lib.ValueLayout
import Idealize.ShloMosaic.PureOps.Ideal.Laws

noncomputable section

namespace Cert.Block

open Cert.KernelIdeal Cert.KernelIdeal.Gen Idealize.ShloMosaic Idealize.ShloMosaic.ValueIdx

/-- A bias row of 2048 entries, broadcast down 512 rows, reads its own column. -/
theorem bias2048_apply (v : Vec Ideal S1x2048 .f32) (a : Fin 512) (j : Fin 2048) :
    broadcastTo S512x2048 (shapeCast S1x2048 v shapeCasts_S1x2048_S1x2048) broadcasts_S1x2048_S512x2048 (ix2 a j) = v (ix2 (0 : Fin 1) j) := by
  refine (congrFun (congrArg (fun w => broadcastTo S512x2048 w broadcasts_S1x2048_S512x2048) (shapeCast_self v shapeCasts_S1x2048_S1x2048)) (ix2 a j)).trans ?_
  exact broadcastTo_apply v broadcasts_S1x2048_S512x2048 (ix2 a j) (ix2 (0 : Fin 1) j) (fun ax => match ax with
    | ⟨0, _⟩ => by show 0 = if (1 : Nat) = 1 then 0 else a.val; rw [if_pos rfl]
    | ⟨1, _⟩ => by show j.val = if (2048 : Nat) = 1 then 0 else j.val; rw [if_neg (by decide)])

/-- A bias row of 1024 entries, broadcast down 512 rows, reads its own column. -/
theorem bias1024_apply (v : Vec Ideal S1x1024 .f32) (a : Fin 512) (q : Fin 1024) :
    broadcastTo S512x1024 (shapeCast S1x1024 v shapeCasts_S1x1024_S1x1024) broadcasts_S1x1024_S512x1024 (ix2 a q) = v (ix2 (0 : Fin 1) q) := by
  refine (congrFun (congrArg (fun w => broadcastTo S512x1024 w broadcasts_S1x1024_S512x1024) (shapeCast_self v shapeCasts_S1x1024_S1x1024)) (ix2 a q)).trans ?_
  exact broadcastTo_apply v broadcasts_S1x1024_S512x1024 (ix2 a q) (ix2 (0 : Fin 1) q) (fun ax => match ax with
    | ⟨0, _⟩ => by show 0 = if (1 : Nat) = 1 then 0 else a.val; rw [if_pos rfl]
    | ⟨1, _⟩ => by show q.val = if (1024 : Nat) = 1 then 0 else q.val; rw [if_neg (by decide)])

/-- The product of a block of 512 rows with the fused 1024-by-2048 weight, from the zero accumulator, at an entry: a
    sum over the 1024 contracted features (rounding the operands to the narrower format is the identity here). -/
theorem mm2048_apply (X : FVec Ideal S512x1024 .f32) (W : FVec Ideal S1024x2048 .bf16) (a : Fin 512) (j : Fin 2048) :
    matmul dot_S512x1024_S1024x2048_S512x2048_1_0_0_1_n_n none (truncf .bf16 X bitsLt_bf16_f32)
        (shapeCast S1024x2048 W shapeCasts_S1024x2048_S1024x2048) (constant (F := Ideal) S512x2048 .f32 0x00000000#32) (ix2 a j)
      = ∑ k : Fin 1024, X (ix2 a k) * W (ix2 k j) := by
  rw [shapeCast_self]
  exact matmul_ix2_apply (a := 512) (k := 1024) (b := 2048) dot_S512x1024_S1024x2048_S512x2048_1_0_0_1_n_n rfl rfl rfl rfl rfl rfl none
    (truncf .bf16 X bitsLt_bf16_f32) W a j

/-- The same for a 1024-by-1024 weight. -/
theorem mm1024_apply (X : FVec Ideal S512x1024 .f32) (W : FVec Ideal S1024x1024 .bf16) (a : Fin 512) (q : Fin 1024) :
    matmul dot_S512x1024_S1024x1024_S512x1024_1_0_0_1_n_n none (truncf .bf16 X bitsLt_bf16_f32)
        (shapeCast S1024x1024 W shapeCasts_S1024x1024_S1024x1024) (constant (F := Ideal) S512x1024 .f32 0x00000000#32) (ix2 a q)
      = ∑ k : Fin 1024, X (ix2 a k) * W (ix2 k q) := by
  rw [shapeCast_self]
  exact matmul_ix2_apply (a := 512) (k := 1024) (b := 1024) dot_S512x1024_S1024x1024_S512x1024_1_0_0_1_n_n rfl rfl rfl rfl rfl rfl none
    (truncf .bf16 X bitsLt_bf16_f32) W a q

/-- The fused gate block at an entry: the logistic function of the sum of the two affine maps, input side then state side. -/
theorem pay4_apply (P0 P1 : Vec Ideal S512x1024 .f32) (P2 : Vec Ideal S1024x2048 .bf16) (P3 : Vec Ideal S1x2048 .f32)
    (P4 : Vec Ideal S1024x2048 .bf16) (P5 : Vec Ideal S1x2048 .f32) (a : Fin 512) (j : Fin 2048) :
    k0_pay4 P0 P1 P2 P3 P4 P5 (ix2 a j)
      = Ideal.logistic (((∑ k : Fin 1024, P0 (ix2 a k) * P2 (ix2 k j)) + P3 (ix2 (0 : Fin 1) j))
          + ((∑ k : Fin 1024, P1 (ix2 a k) * P4 (ix2 k j)) + P5 (ix2 (0 : Fin 1) j))) := by
  unfold k0_pay4 k0_pay2 k0_pay3
  dsimp only
  refine congrArg Ideal.logistic ?_
  exact congrArg₂ (· + ·) (congrArg₂ (· + ·) (mm2048_apply P0 P2 a j) (bias2048_apply P3 a j))
    (congrArg₂ (· + ·) (mm2048_apply P1 P4 a j) (bias2048_apply P5 a j))

/-- The input side of the candidate at an entry: the affine map of the input block. -/
theorem pay7_apply (P0 : Vec Ideal S512x1024 .f32) (P6 : Vec Ideal S1024x1024 .bf16) (P7 : Vec Ideal S1x1024 .f32) (a : Fin 512) (q : Fin 1024) :
    k0_pay7 P0 P6 P7 (ix2 a q) = (∑ k : Fin 1024, P0 (ix2 a k) * P6 (ix2 k q)) + P7 (ix2 (0 : Fin 1) q) := by
  unfold k0_pay7 k0_pay2
  dsimp only
  exact congrArg₂ (· + ·) (mm1024_apply P0 P6 a q) (bias1024_apply P7 a q)

/-- The state side of the candidate at an entry, before its bias. -/
theorem pay8_apply (P1 : Vec Ideal S512x1024 .f32) (P8 : Vec Ideal S1024x1024 .bf16) (a : Fin 512) (q : Fin 1024) :
    k0_pay8 P1 P8 (ix2 a q) = ∑ k : Fin 1024, P1 (ix2 a k) * P8 (ix2 k q) := by
  unfold k0_pay8 k0_pay3
  dsimp only
  exact mm1024_apply P1 P8 a q

/-- Column `q` of the reset half of the fused gate block. -/
def rcol (q : Fin 1024) : Fin 2048 := ⟨q.val, by have := q.isLt; omega⟩
/-- Column `q` of the update half of the fused gate block: 1024 columns further right. -/
def zcol (q : Fin 1024) : Fin 2048 := ⟨q.val + 1024, by have := q.isLt; omega⟩

/-- THE BLOCK THE BODY LEAVES, AT AN ENTRY: with r and z the two halves of the fused gate block and n the candidate,
    `(1 - z) * n + z * h`, every matrix product a sum over the 1024 contracted features. -/
theorem block_apply (P0 P1 : Vec Ideal S512x1024 .f32) (P2 : Vec Ideal S1024x2048 .bf16) (P3 : Vec Ideal S1x2048 .f32)
    (P4 : Vec Ideal S1024x2048 .bf16) (P5 : Vec Ideal S1x2048 .f32) (P6 : Vec Ideal S1024x1024 .bf16) (P7 : Vec Ideal S1x1024 .f32)
    (P8 : Vec Ideal S1024x1024 .bf16) (P9 : Vec Ideal S1x1024 .f32) (a : Fin 512) (q : Fin 1024) :
    Cert.KernelIdeal.Value.E10 P0 P1 P2 P3 P4 P5 P6 P7 P8 P9 (ix2 a q)
      = (Ideal.ofBits .f32 0x3F800000#32
            - Ideal.logistic (((∑ k : Fin 1024, P0 (ix2 a k) * P2 (ix2 k (zcol q))) + P3 (ix2 (0 : Fin 1) (zcol q)))
                + ((∑ k : Fin 1024, P1 (ix2 a k) * P4 (ix2 k (zcol q))) + P5 (ix2 (0 : Fin 1) (zcol q)))))
          * Ideal.tanh (((∑ k : Fin 1024, P0 (ix2 a k) * P6 (ix2 k q)) + P7 (ix2 (0 : Fin 1) q))
              + Ideal.logistic (((∑ k : Fin 1024, P0 (ix2 a k) * P2 (ix2 k (rcol q))) + P3 (ix2 (0 : Fin 1) (rcol q)))
                  + ((∑ k : Fin 1024, P1 (ix2 a k) * P4 (ix2 k (rcol q))) + P5 (ix2 (0 : Fin 1) (rcol q))))
                * ((∑ k : Fin 1024, P1 (ix2 a k) * P8 (ix2 k q)) + P9 (ix2 (0 : Fin 1) q)))
        + Ideal.logistic (((∑ k : Fin 1024, P0 (ix2 a k) * P2 (ix2 k (zcol q))) + P3 (ix2 (0 : Fin 1) (zcol q)))
              + ((∑ k : Fin 1024, P1 (ix2 a k) * P4 (ix2 k (zcol q))) + P5 (ix2 (0 : Fin 1) (zcol q))))
          * P1 (ix2 a q) := by
  have e0 : Cert.KernelIdeal.Value.ix10_0 (ix2 a q) = ix2 a (zcol q) := funext fun ax => by
    match ax with | ⟨0, _⟩ => rfl | ⟨1, _⟩ => rfl
  have e1 : Cert.KernelIdeal.Value.ix10_1 (ix2 a q) = ix2 a q := funext fun ax => by
    match ax with | ⟨0, _⟩ => rfl | ⟨1, _⟩ => rfl
  have e2 : Cert.KernelIdeal.Value.ix10_2 (ix2 a q) = ix2 a (rcol q) := funext fun ax => by
    match ax with | ⟨0, _⟩ => rfl | ⟨1, _⟩ => rfl
  have e3 : Cert.KernelIdeal.Value.ix10_3 (ix2 a q) = ix2 a q := funext fun ax => by
    match ax with | ⟨0, _⟩ => rfl | ⟨1, _⟩ => rfl
  have e4 : Cert.KernelIdeal.Value.ix10_4 (ix2 a q) = ix2 (0 : Fin 1) q := funext fun ax => by
    match ax with | ⟨0, _⟩ => rfl | ⟨1, _⟩ => rfl
  have e5 : Cert.KernelIdeal.Value.ix10_5 (ix2 a q) = ix2 a (zcol q) := funext fun ax => by
    match ax with | ⟨0, _⟩ => rfl | ⟨1, _⟩ => rfl
  have e6 : Cert.KernelIdeal.Value.ix10_6 (ix2 a q) = ix2 a q := funext fun ax => by
    match ax with | ⟨0, _⟩ => rfl | ⟨1, _⟩ => rfl
  show FloatOps.addf (FloatOps.mulf (FloatOps.subf (Scalar.ofBits .f32 0x3F800000#32) (k0_pay4 P0 P1 P2 P3 P4 P5 (Cert.KernelIdeal.Value.ix10_0 (ix2 a q))))
      (FloatOps.tanh (FloatOps.addf (k0_pay7 P0 P6 P7 (Cert.KernelIdeal.Value.ix10_1 (ix2 a q)))
        (FloatOps.mulf (k0_pay4 P0 P1 P2 P3 P4 P5 (Cert.KernelIdeal.Value.ix10_2 (ix2 a q)))
          (FloatOps.addf (k0_pay8 P1 P8 (Cert.KernelIdeal.Value.ix10_3 (ix2 a q))) (P9 (Cert.KernelIdeal.Value.ix10_4 (ix2 a q))))))))
    (FloatOps.mulf (k0_pay4 P0 P1 P2 P3 P4 P5 (Cert.KernelIdeal.Value.ix10_5 (ix2 a q))) (P1 (Cert.KernelIdeal.Value.ix10_6 (ix2 a q)))) = _
  rw [e0, e1, e2, e3, e4, e5, e6, pay4_apply, pay4_apply, pay7_apply, pay8_apply]
  rfl

/-- THE BLOCK ENTRY IS THE CELL: when the ten loaded blocks hold, where the entry reads them, row `p` of the input and of
    the previous state, row `q` of each weight matrix (the two fused matrices hold the reset weights in their columns
    `q` and the update weights in their columns `q + 1024`) and entry `q` of each bias, the block entry at `(a, q)` is
    the cell at `(p, q)`. Nothing is assumed finite: the two sides are the same expression. -/
theorem block_eq_cell (P0 P1 : Vec Ideal S512x1024 .f32) (P2 : Vec Ideal S1024x2048 .bf16) (P3 : Vec Ideal S1x2048 .f32)
    (P4 : Vec Ideal S1024x2048 .bf16) (P5 : Vec Ideal S1x2048 .f32) (P6 : Vec Ideal S1024x1024 .bf16) (P7 : Vec Ideal S1x1024 .f32)
    (P8 : Vec Ideal S1024x1024 .bf16) (P9 : Vec Ideal S1x1024 .f32)
    (x h : Cert.Cell.SB.Idx → EReal) (Wir : Cert.Cell.SW.Idx → EReal) (bir : Cert.Cell.SV.Idx → EReal)
    (Whr : Cert.Cell.SW.Idx → EReal) (bhr : Cert.Cell.SV.Idx → EReal) (Wiz : Cert.Cell.SW.Idx → EReal) (biz : Cert.Cell.SV.Idx → EReal)
    (Whz : Cert.Cell.SW.Idx → EReal) (bhz : Cert.Cell.SV.Idx → EReal) (Win : Cert.Cell.SW.Idx → EReal) (bin : Cert.Cell.SV.Idx → EReal)
    (Whn : Cert.Cell.SW.Idx → EReal) (bhn : Cert.Cell.SV.Idx → EReal)
    (a : Fin 512) (q : Fin 1024) (p : Fin 32768)
    (h0 : ∀ k : Fin 1024, P0 (ix2 a k) = x (ix2 p k)) (h1 : ∀ k : Fin 1024, P1 (ix2 a k) = h (ix2 p k))
    (h2r : ∀ k : Fin 1024, P2 (ix2 k (rcol q)) = Wir (ix2 q k)) (h2z : ∀ k : Fin 1024, P2 (ix2 k (zcol q)) = Wiz (ix2 q k))
    (h3r : P3 (ix2 (0 : Fin 1) (rcol q)) = bir (ix1 q)) (h3z : P3 (ix2 (0 : Fin 1) (zcol q)) = biz (ix1 q))
    (h4r : ∀ k : Fin 1024, P4 (ix2 k (rcol q)) = Whr (ix2 q k)) (h4z : ∀ k : Fin 1024, P4 (ix2 k (zcol q)) = Whz (ix2 q k))
    (h5r : P5 (ix2 (0 : Fin 1) (rcol q)) = bhr (ix1 q)) (h5z : P5 (ix2 (0 : Fin 1) (zcol q)) = bhz (ix1 q))
    (h6 : ∀ k : Fin 1024, P6 (ix2 k q) = Win (ix2 q k)) (h7 : P7 (ix2 (0 : Fin 1) q) = bin (ix1 q))
    (h8 : ∀ k : Fin 1024, P8 (ix2 k q) = Whn (ix2 q k)) (h9 : P9 (ix2 (0 : Fin 1) q) = bhn (ix1 q)) :
    Cert.KernelIdeal.Value.E10 P0 P1 P2 P3 P4 P5 P6 P7 P8 P9 (ix2 a q)
      = Cert.Cell.cellAt x h Wir bir Whr bhr Wiz biz Whz bhz Win bin Whn bhn p q := by
  rw [block_apply]
  unfold Cert.Cell.cellAt Cert.Cell.cand Cert.Cell.gate Cert.Cell.lin
  simp only [h0, h1, h2r, h2z, h3r, h3z, h4r, h4z, h5r, h5z, h6, h7, h8, h9]

end Cert.Block

end
-- ==== Proof.BlockReads.lean ====
/-
  Where each window's block sits in its array, and that the output's blocks cover the result array.

  The grid has 64 points. The two row-blocked inputs and the output are cut into blocks of 512 rows by 1024 columns,
  and point t works on block (t, 0): row a of that block is row 512 t + a of the array, the columns unchanged. Every
  other window has one block, the whole array, at block index (0, 0), so reading the block at an index is reading the
  array at that index. An index (r, s) of the result array lies in the block of point r / 512, and every point writes
  its block back, so the blocks cover the array.
-/
import proofs.«176661_j78039555768457_2_alg».proof.Proof.Gen.KernelIdeal.Value
import Idealize.ShloMosaic.Lib.Pipeline.Value
import Idealize.ShloMosaic.Lib.ValueIdx

noncomputable section

open Idealize.ShloMosaic Idealize.ShloMosaic.TcCoe Idealize.SL.Sem

namespace Cert.BlockReads

open Cert.KernelIdeal Cert.KernelIdeal.Gen Idealize.ShloMosaic Idealize.ShloMosaic.ValueIdx

variable (m : (ℓ : Loc nD τ sig) → Buf (Elt Ideal) ℓ)

/-- A grid point is below 64. -/
theorem lt64 (t : Fin cfg0.N) : t.val < 64 := by
  exact Nat.lt_of_lt_of_eq t.isLt N_0

/-- The array row of row `a` of block `t`. -/
def row (t : Fin cfg0.N) (a : Fin 512) : Fin 32768 :=
  ⟨512 * t.val + a.val, by have := lt64 t; have := a.isLt; omega⟩

/-- The index maps, decided over the grid: the row-blocked windows are at block (t, 0), the others at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_10.index t (0 : Fin 2) = t.val ∧ win0_10.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- The output block's index (a, q) at point `t` is the array's index (512 t + a, q). -/
theorem emb10 (t : Fin cfg0.N) (a : Fin 512) (q : Fin 1024) :
    ((cfg0.win 10).blk t).view.emb (ix2 a q : S512x1024.Idx) = (ix2 (row t a) q : S32768x1024.Idx) := by
  obtain ⟨-, -, ⟨e0, e1⟩, -⟩ := idx_facts t
  funext d; apply Fin.ext
  match d with
  | ⟨0, _⟩ => show win0_10.index t (0 : Fin 2) * 512 + 1 * a.val = 512 * t.val + a.val; rw [e0]; omega
  | ⟨1, _⟩ => show win0_10.index t (1 : Fin 2) * 1024 + 1 * q.val = q.val; rw [e1]; omega

/-- The first input's block at point `t`, read at (a, k), is the argument at (512 t + a, k). -/
theorem blk0 (c : Dev nD) (t : Fin cfg0.N) (a : Fin 512) (k : Fin 1024) :
    (iblk (F := Ideal) m c 0 t : S512x1024.Idx → EReal) (ix2 a k) = (m ((c : Thread nD τ).loc main_arg0) : S32768x1024.Idx → EReal) (ix2 (row t a) k) := by
  obtain ⟨⟨e0, e1⟩, -⟩ := idx_facts t
  unfold iblk
  rw [View.read_apply]
  show V m c main_arg0 _ = m (c.tc.loc main_arg0) _
  rw [V_main_arg0]
  congr 1
  funext d; apply Fin.ext
  match d with
  | ⟨0, _⟩ => show win0_0.index t (0 : Fin 2) * 512 + 1 * a.val = 512 * t.val + a.val; rw [e0]; omega
  | ⟨1, _⟩ => show win0_0.index t (1 : Fin 2) * 1024 + 1 * k.val = k.val; rw [e1]; omega

/-- The second input's block at point `t`, read at (a, k), is the argument at (512 t + a, k). -/
theorem blk1 (c : Dev nD) (t : Fin cfg0.N) (a : Fin 512) (k : Fin 1024) :
    (iblk (F := Ideal) m c 1 t : S512x1024.Idx → EReal) (ix2 a k) = (m ((c : Thread nD τ).loc main_arg1) : S32768x1024.Idx → EReal) (ix2 (row t a) k) := by
  obtain ⟨-, ⟨e0, e1⟩, -⟩ := idx_facts t
  unfold iblk
  rw [View.read_apply]
  show V m c main_arg1 _ = m (c.tc.loc main_arg1) _
  rw [V_main_arg1]
  congr 1
  funext d; apply Fin.ext
  match d with
  | ⟨0, _⟩ => show win0_1.index t (0 : Fin 2) * 512 + 1 * a.val = 512 * t.val + a.val; rw [e0]; omega
  | ⟨1, _⟩ => show win0_1.index t (1 : Fin 2) * 1024 + 1 * k.val = k.val; rw [e1]; omega

/-- Window 2's one block is its whole array: read at an index, it is the array there. -/
theorem blk2 (c : Dev nD) (t : Fin cfg0.N) (k : Fin 1024) (j : Fin 2048) :
    (iblk (F := Ideal) m c 2 t : S1024x2048.Idx → EReal) (ix2 k j) = (V (F := Ideal) m c main_v3 : S1024x2048.Idx → EReal) (ix2 k j) := by
  obtain ⟨-, -, -, ⟨e0, e1⟩, -⟩ := idx_facts t
  unfold iblk
  rw [View.read_apply]
  show V m c main_v3 _ = V m c main_v3 _
  congr 1
  funext d; apply Fin.ext
  match d with
  | ⟨0, _⟩ => show win0_2.index t (0 : Fin 2) * 1024 + 1 * k.val = k.val; rw [e0]; omega
  | ⟨1, _⟩ => show win0_2.index t (1 : Fin 2) * 2048 + 1 * j.val = j.val; rw [e1]; omega

/-- Window 4's one block is its whole array: read at an index, it is the array there. -/
theorem blk4 (c : Dev nD) (t : Fin cfg0.N) (k : Fin 1024) (j : Fin 2048) :
    (iblk (F := Ideal) m c 4 t : S1024x2048.Idx → EReal) (ix2 k j) = (V (F := Ideal) m c main_v5 : S1024x2048.Idx → EReal) (ix2 k j) := by
  obtain ⟨-, -, -, -, -, ⟨e0, e1⟩, -⟩ := idx_facts t
  unfold iblk
  rw [View.read_apply]
  show V m c main_v5 _ = V m c main_v5 _
  congr 1
  funext d; apply Fin.ext
  match d with
  | ⟨0, _⟩ => show win0_4.index t (0 : Fin 2) * 1024 + 1 * k.val = k.val; rw [e0]; omega
  | ⟨1, _⟩ => show win0_4.index t (1 : Fin 2) * 2048 + 1 * j.val = j.val; rw [e1]; omega

/-- Window 3's one block is its whole array: read at an index, it is the array there. -/
theorem blk3 (c : Dev nD) (t : Fin cfg0.N) (k : Fin 1024) (q : Fin 1024) :
    (iblk (F := Ideal) m c 3 t : S1024x1024.Idx → EReal) (ix2 k q) = (V (F := Ideal) m c main_v7 : S1024x1024.Idx → EReal) (ix2 k q) := by
  obtain ⟨-, -, -, -, ⟨e0, e1⟩, -⟩ := idx_facts t
  unfold iblk
  rw [View.read_apply]
  show V m c main_v7 _ = V m c main_v7 _
  congr 1
  funext d; apply Fin.ext
  match d with
  | ⟨0, _⟩ => show win0_3.index t (0 : Fin 2) * 1024 + 1 * k.val = k.val; rw [e0]; omega
  | ⟨1, _⟩ => show win0_3.index t (1 : Fin 2) * 1024 + 1 * q.val = q.val; rw [e1]; omega

/-- Window 5's one block is its whole array: read at an index, it is the array there. -/
theorem blk5 (c : Dev nD) (t : Fin cfg0.N) (k : Fin 1024) (q : Fin 1024) :
    (iblk (F := Ideal) m c 5 t : S1024x1024.Idx → EReal) (ix2 k q) = (V (F := Ideal) m c main_v9 : S1024x1024.Idx → EReal) (ix2 k q) := by
  obtain ⟨-, -, -, -, -, -, ⟨e0, e1⟩, -⟩ := idx_facts t
  unfold iblk
  rw [View.read_apply]
  show V m c main_v9 _ = V m c main_v9 _
  congr 1
  funext d; apply Fin.ext
  match d with
  | ⟨0, _⟩ => show win0_5.index t (0 : Fin 2) * 1024 + 1 * k.val = k.val; rw [e0]; omega
  | ⟨1, _⟩ => show win0_5.index t (1 : Fin 2) * 1024 + 1 * q.val = q.val; rw [e1]; omega

/-- Window 6's one block is its whole array: read at an index, it is the array there. -/
theorem blk6 (c : Dev nD) (t : Fin cfg0.N)  (j : Fin 2048) :
    (iblk (F := Ideal) m c 6 t : S1x2048.Idx → EReal) (ix2 (0 : Fin 1) j) = (V (F := Ideal) m c main_v11 : S1x2048.Idx → EReal) (ix2 (0 : Fin 1) j) := by
  obtain ⟨-, -, -, -, -, -, -, ⟨e0, e1⟩, -⟩ := idx_facts t
  unfold iblk
  rw [View.read_apply]
  show V m c main_v11 _ = V m c main_v11 _
  congr 1
  funext d; apply Fin.ext
  match d with
  | ⟨0, _⟩ => show win0_6.index t (0 : Fin 2) * 1 + 1 * (0 : Fin 1).val = (0 : Fin 1).val; rw [e0]; omega
  | ⟨1, _⟩ => show win0_6.index t (1 : Fin 2) * 2048 + 1 * j.val = j.val; rw [e1]; omega

/-- Window 8's one block is its whole array: read at an index, it is the array there. -/
theorem blk8 (c : Dev nD) (t : Fin cfg0.N)  (j : Fin 2048) :
    (iblk (F := Ideal) m c 8 t : S1x2048.Idx → EReal) (ix2 (0 : Fin 1) j) = (V (F := Ideal) m c main_v13 : S1x2048.Idx → EReal) (ix2 (0 : Fin 1) j) := by
  obtain ⟨-, -, -, -, -, -, -, -, -, ⟨e0, e1⟩, -⟩ := idx_facts t
  unfold iblk
  rw [View.read_apply]
  show V m c main_v13 _ = V m c main_v13 _
  congr 1
  funext d; apply Fin.ext
  match d with
  | ⟨0, _⟩ => show win0_8.index t (0 : Fin 2) * 1 + 1 * (0 : Fin 1).val = (0 : Fin 1).val; rw [e0]; omega
  | ⟨1, _⟩ => show win0_8.index t (1 : Fin 2) * 2048 + 1 * j.val = j.val; rw [e1]; omega

/-- Window 7's one block is its whole array: read at an index, it is the array there. -/
theorem blk7 (c : Dev nD) (t : Fin cfg0.N)  (q : Fin 1024) :
    (iblk (F := Ideal) m c 7 t : S1x1024.Idx → EReal) (ix2 (0 : Fin 1) q) = (V (F := Ideal) m c main_v14 : S1x1024.Idx → EReal) (ix2 (0 : Fin 1) q) := by
  obtain ⟨-, -, -, -, -, -, -, -, ⟨e0, e1⟩, -⟩ := idx_facts t
  unfold iblk
  rw [View.read_apply]
  show V m c main_v14 _ = V m c main_v14 _
  congr 1
  funext d; apply Fin.ext
  match d with
  | ⟨0, _⟩ => show win0_7.index t (0 : Fin 2) * 1 + 1 * (0 : Fin 1).val = (0 : Fin 1).val; rw [e0]; omega
  | ⟨1, _⟩ => show win0_7.index t (1 : Fin 2) * 1024 + 1 * q.val = q.val; rw [e1]; omega

/-- Window 9's one block is its whole array: read at an index, it is the array there. -/
theorem blk9 (c : Dev nD) (t : Fin cfg0.N)  (q : Fin 1024) :
    (iblk (F := Ideal) m c 9 t : S1x1024.Idx → EReal) (ix2 (0 : Fin 1) q) = (V (F := Ideal) m c main_v15 : S1x1024.Idx → EReal) (ix2 (0 : Fin 1) q) := by
  obtain ⟨-, -, -, -, -, -, -, -, -, -, ⟨e0, e1⟩⟩ := idx_facts t
  unfold iblk
  rw [View.read_apply]
  show V m c main_v15 _ = V m c main_v15 _
  congr 1
  funext d; apply Fin.ext
  match d with
  | ⟨0, _⟩ => show win0_9.index t (0 : Fin 2) * 1 + 1 * (0 : Fin 1).val = (0 : Fin 1).val; rw [e0]; omega
  | ⟨1, _⟩ => show win0_9.index t (1 : Fin 2) * 1024 + 1 * q.val = q.val; rw [e1]; omega

/-- Every index of the result array lies in the block of some point that writes back: the point (i 0) / 512. -/
theorem cover10 : ∀ i : S32768x1024.Idx, ∃ t : Fin cfg0.N, (cfg0.win 10).flush t = true ∧ i ∈ ((cfg0.win 10).blk t).view.set := by
  intro i
  have hi0 : (i 0).val < 32768 := (i 0).isLt
  have hi1 : (i 1).val < 1024 := (i 1).isLt
  obtain ⟨t, ht⟩ : ∃ t : Fin cfg0.N, t.val = (i 0).val / 512 :=
    ⟨⟨(i 0).val / 512, Nat.lt_of_lt_of_eq (by omega : (i 0).val / 512 < 64) N_0.symm⟩, rfl⟩
  obtain ⟨-, -, ⟨e0, e1⟩, -⟩ := idx_facts t
  refine ⟨t, flush0_10 t, ?_⟩
  show i ∈ ((View.whole main_v16).slice (win0_10.rect t)).set
  rw [View.set_slice_whole, Rect.mem_set_unit]
  intro a
  match a with
  | ⟨0, _⟩ => show win0_10.index t (0 : Fin 2) * 512 ≤ (i 0).val ∧ (i 0).val < win0_10.index t (0 : Fin 2) * 512 + 512; rw [e0]; omega
  | ⟨1, _⟩ => show win0_10.index t (1 : Fin 2) * 1024 ≤ (i 1).val ∧ (i 1).val < win0_10.index t (1 : Fin 2) * 1024 + 1024; rw [e1]; omega

end Cert.BlockReads

end
-- ==== Proof.KernelArrays.lean ====
/-
  What the kernel's launch finds in the eight arrays that the host operations prepare, entry by entry.

  Before the one launch the host program builds, from twelve of its arguments (six weight matrices W, each 1024 by
  1024 with W (q, k) the weight from input feature k to output feature q, and six bias vectors b of 1024 entries):
    • the reset and update weights stacked along the output axis, transposed and narrowed: a 1024 by 2048 array whose
      entry (k, q) is W_r (q, k) for q < 1024 and whose entry (k, q + 1024) is W_z (q, k) — once for the input-side
      pair and once for the state-side pair;
    • each candidate weight matrix transposed and narrowed: entry (k, q) is W_n (q, k);
    • the reset and update biases laid end to end as one row of 2048 entries: entry (0, q) is b_r q and entry
      (0, q + 1024) is b_z q — once for each side;
    • each candidate bias as one row of 1024 entries: entry (0, q) is b_n q.
  On the extended reals the narrowing of a float format is the identity, so every entry of every one of the eight
  arrays is literally an entry of an argument. Each array is first written as one term of the arguments (the host
  operations composed), then that term is read at an index: the narrowing reads through, the transpose swaps the two
  coordinates, a stacking along axis 0 reads its first piece below row 1024 and its second piece, 1024 rows down,
  from there on, and a reshape of a vector to one row keeps the position.
-/
import proofs.«176661_j78039555768457_2_alg».proof.Proof.Gen.KernelIdeal.Frame
import proofs.«176661_j78039555768457_2_alg».proof.Proof.LibMatmulRead
import Idealize.ShloMosaic.Lib.Pipeline.Value
import Idealize.ShloMosaic.Lib.ValueIdx
import Idealize.ShloMosaic.Lib.ValueLayout
import Idealize.ShloMosaic.Lib.StableHlo.Run

noncomputable section

namespace Cert.KernelArrays

open Cert.KernelIdeal Cert.KernelIdeal.Gen Idealize.ShloMosaic Idealize.ShloMosaic.TcCoe Idealize.ShloMosaic.ValueIdx

/-! ## Three layout facts at the shapes met here -/

/-- Two 1024 by 1024 matrices stacked along axis 0, transposed: column `q < 1024` of row `k` is the first matrix at
    `(q, k)`. -/
theorem stackT_left (A B : S1024x1024.Idx → EReal)
    (hc : Shape.Concatenates [S1024x1024, S1024x1024] S2048x1024 0) (ht : S2048x1024.Transposes [1, 0] S1024x2048)
    (k q : Fin 1024) (hq : q.val < 2048) :
    transpose S1024x2048 [1, 0] (concatenate S2048x1024 0 [⟨S1024x1024, A⟩, ⟨S1024x1024, B⟩] hc) ht
        (ix2 k (⟨q.val, hq⟩ : Fin 2048)) = A (ix2 q k) := by
  refine (transpose_ab_ba_apply (a := 2048) (b := 1024) _ ht k ⟨q.val, hq⟩).trans ?_
  exact concatenate_pair_apply_left (0 : Fin 2) A B hc (ix2 (⟨q.val, hq⟩ : Fin 2048) k) rfl (ix2 q k)
    (fun b => match b with | ⟨0, _⟩ => rfl | ⟨1, _⟩ => rfl)

/-- … and column `q + 1024` of row `k` is the second matrix at `(q, k)`. -/
theorem stackT_right (A B : S1024x1024.Idx → EReal)
    (hc : Shape.Concatenates [S1024x1024, S1024x1024] S2048x1024 0) (ht : S2048x1024.Transposes [1, 0] S1024x2048)
    (k q : Fin 1024) (hq : q.val + 1024 < 2048) :
    transpose S1024x2048 [1, 0] (concatenate S2048x1024 0 [⟨S1024x1024, A⟩, ⟨S1024x1024, B⟩] hc) ht
        (ix2 k (⟨q.val + 1024, hq⟩ : Fin 2048)) = B (ix2 q k) := by
  refine (transpose_ab_ba_apply (a := 2048) (b := 1024) _ ht k ⟨q.val + 1024, hq⟩).trans ?_
  exact concatenate_pair_apply_right (0 : Fin 2) A B hc (ix2 (⟨q.val + 1024, hq⟩ : Fin 2048) k) rfl rfl (ix2 q k)
    (fun b hb => match b, hb with | ⟨0, _⟩, hb => absurd rfl hb | ⟨1, _⟩, _ => rfl) rfl

/-- Two vectors of 1024 entries laid end to end, as one row: entry `q < 1024` is the first vector at `q`. -/
theorem rowCat_left (A B : S1024.Idx → EReal)
    (hc : Shape.Concatenates [S1024, S1024] S2048 0) (hs : S2048.ShapeCasts S1x2048)
    (q : Fin 1024) (hq : q.val < 2048) :
    shapeCast S1x2048 (concatenate S2048 0 [⟨S1024, A⟩, ⟨S1024, B⟩] hc) hs
        (ix2 (0 : Fin 1) (⟨q.val, hq⟩ : Fin 2048)) = A (ix1 q) := by
  refine (shapeCast_a_1a_apply (a := 2048) _ hs (0 : Fin 1) ⟨q.val, hq⟩).trans ?_
  exact concatenate_pair_apply_left (0 : Fin 1) A B hc (ix1 (⟨q.val, hq⟩ : Fin 2048)) rfl (ix1 q)
    (fun b => match b with | ⟨0, _⟩ => rfl)

/-- … and entry `q + 1024` is the second vector at `q`. -/
theorem rowCat_right (A B : S1024.Idx → EReal)
    (hc : Shape.Concatenates [S1024, S1024] S2048 0) (hs : S2048.ShapeCasts S1x2048)
    (q : Fin 1024) (hq : q.val + 1024 < 2048) :
    shapeCast S1x2048 (concatenate S2048 0 [⟨S1024, A⟩, ⟨S1024, B⟩] hc) hs
        (ix2 (0 : Fin 1) (⟨q.val + 1024, hq⟩ : Fin 2048)) = B (ix1 q) := by
  refine (shapeCast_a_1a_apply (a := 2048) _ hs (0 : Fin 1) ⟨q.val + 1024, hq⟩).trans ?_
  exact concatenate_pair_apply_right (0 : Fin 1) A B hc (ix1 (⟨q.val + 1024, hq⟩ : Fin 2048)) rfl rfl (ix1 q)
    (fun b hb => match b, hb with | ⟨0, _⟩, hb => absurd rfl hb) rfl

variable (m : (ℓ : Loc nD τ sig) → Buf (Elt Ideal) ℓ) (c : Dev nD)

/-! ## The eight arrays as terms of the arguments -/

theorem v3_eq :
    @Eq (S1024x2048.Idx → EReal) (V (F := Ideal) m c main_v3)
      (truncf (F := Ideal) .bf16 (transpose S1024x2048 [1, 0]
        (concatenate S2048x1024 0
          [⟨S1024x1024, (m ((c : Thread nD τ).loc main_arg2) : S1024x1024.Idx → EReal)⟩,
           ⟨S1024x1024, (m ((c : Thread nD τ).loc main_arg6) : S1024x1024.Idx → EReal)⟩]
          Facts₀.concatenates_S1024x1024_S1024x1024_S2048x1024_d0)
        Facts₀.transposes_S2048x1024_S1024x2048_1_0) Facts₀.bitsLt_bf16_f32) := by
  dsimp only [Gen.V, Gen.hostOps0]
  after_results <;> rfl

theorem v5_eq :
    @Eq (S1024x2048.Idx → EReal) (V (F := Ideal) m c main_v5)
      (truncf (F := Ideal) .bf16 (transpose S1024x2048 [1, 0]
        (concatenate S2048x1024 0
          [⟨S1024x1024, (m ((c : Thread nD τ).loc main_arg4) : S1024x1024.Idx → EReal)⟩,
           ⟨S1024x1024, (m ((c : Thread nD τ).loc main_arg8) : S1024x1024.Idx → EReal)⟩]
          Facts₀.concatenates_S1024x1024_S1024x1024_S2048x1024_d0)
        Facts₀.transposes_S2048x1024_S1024x2048_1_0) Facts₀.bitsLt_bf16_f32) := by
  dsimp only [Gen.V, Gen.hostOps0]
  after_results <;> rfl

theorem v7_eq :
    @Eq (S1024x1024.Idx → EReal) (V (F := Ideal) m c main_v7)
      (truncf (F := Ideal) .bf16 (transpose S1024x1024 [1, 0]
        (m ((c : Thread nD τ).loc main_arg10) : S1024x1024.Idx → EReal)
        Facts₀.transposes_S1024x1024_S1024x1024_1_0) Facts₀.bitsLt_bf16_f32) := by
  dsimp only [Gen.V, Gen.hostOps0]
  after_results <;> rfl

theorem v9_eq :
    @Eq (S1024x1024.Idx → EReal) (V (F := Ideal) m c main_v9)
      (truncf (F := Ideal) .bf16 (transpose S1024x1024 [1, 0]
        (m ((c : Thread nD τ).loc main_arg12) : S1024x1024.Idx → EReal)
        Facts₀.transposes_S1024x1024_S1024x1024_1_0) Facts₀.bitsLt_bf16_f32) := by
  dsimp only [Gen.V, Gen.hostOps0]
  after_results <;> rfl

theorem v11_eq :
    @Eq (S1x2048.Idx → EReal) (V (F := Ideal) m c main_v11)
      (shapeCast S1x2048
        (concatenate S2048 0
          [⟨S1024, (m ((c : Thread nD τ).loc main_arg3) : S1024.Idx → EReal)⟩,
           ⟨S1024, (m ((c : Thread nD τ).loc main_arg7) : S1024.Idx → EReal)⟩]
          Facts₀.concatenates_S1024_S1024_S2048_d0)
        Facts₀.shapeCasts_S2048_S1x2048) := by
  dsimp only [Gen.V, Gen.hostOps0]
  after_results <;> rfl

theorem v13_eq :
    @Eq (S1x2048.Idx → EReal) (V (F := Ideal) m c main_v13)
      (shapeCast S1x2048
        (concatenate S2048 0
          [⟨S1024, (m ((c : Thread nD τ).loc main_arg5) : S1024.Idx → EReal)⟩,
           ⟨S1024, (m ((c : Thread nD τ).loc main_arg9) : S1024.Idx → EReal)⟩]
          Facts₀.concatenates_S1024_S1024_S2048_d0)
        Facts₀.shapeCasts_S2048_S1x2048) := by
  dsimp only [Gen.V, Gen.hostOps0]
  after_results <;> rfl

theorem v14_eq :
    @Eq (S1x1024.Idx → EReal) (V (F := Ideal) m c main_v14)
      (shapeCast S1x1024 (m ((c : Thread nD τ).loc main_arg11) : S1024.Idx → EReal)
        Facts₀.shapeCasts_S1024_S1x1024) := by
  dsimp only [Gen.V, Gen.hostOps0]
  after_results <;> rfl

theorem v15_eq :
    @Eq (S1x1024.Idx → EReal) (V (F := Ideal) m c main_v15)
      (shapeCast S1x1024 (m ((c : Thread nD τ).loc main_arg13) : S1024.Idx → EReal)
        Facts₀.shapeCasts_S1024_S1x1024) := by
  dsimp only [Gen.V, Gen.hostOps0]
  after_results <;> rfl

/-! ## The eight arrays read at an index -/

/-- The stacked input-side weights: entry `(k, q)`, `q < 1024`, is the reset weight `W_ir (q, k)`. -/
theorem v3_r (k q : Fin 1024) (hq : q.val < 2048) :
    (V (F := Ideal) m c main_v3 : S1024x2048.Idx → EReal) (ix2 k (⟨q.val, hq⟩ : Fin 2048))
      = (m ((c : Thread nD τ).loc main_arg2) : S1024x1024.Idx → EReal) (ix2 q k) := by
  rw [v3_eq, truncf_apply]
  exact stackT_left _ _ Facts₀.concatenates_S1024x1024_S1024x1024_S2048x1024_d0
    Facts₀.transposes_S2048x1024_S1024x2048_1_0 k q hq

/-- … and entry `(k, q + 1024)` is the update weight `W_iz (q, k)`. -/
theorem v3_z (k q : Fin 1024) (hq : q.val + 1024 < 2048) :
    (V (F := Ideal) m c main_v3 : S1024x2048.Idx → EReal) (ix2 k (⟨q.val + 1024, hq⟩ : Fin 2048))
      = (m ((c : Thread nD τ).loc main_arg6) : S1024x1024.Idx → EReal) (ix2 q k) := by
  rw [v3_eq, truncf_apply]
  exact stackT_right _ _ Facts₀.concatenates_S1024x1024_S1024x1024_S2048x1024_d0
    Facts₀.transposes_S2048x1024_S1024x2048_1_0 k q hq

/-- The stacked state-side weights: entry `(k, q)`, `q < 1024`, is the reset weight `W_hr (q, k)`. -/
theorem v5_r (k q : Fin 1024) (hq : q.val < 2048) :
    (V (F := Ideal) m c main_v5 : S1024x2048.Idx → EReal) (ix2 k (⟨q.val, hq⟩ : Fin 2048))
      = (m ((c : Thread nD τ).loc main_arg4) : S1024x1024.Idx → EReal) (ix2 q k) := by
  rw [v5_eq, truncf_apply]
  exact stackT_left _ _ Facts₀.concatenates_S1024x1024_S1024x1024_S2048x1024_d0
    Facts₀.transposes_S2048x1024_S1024x2048_1_0 k q hq

/-- … and entry `(k, q + 1024)` is the update weight `W_hz (q, k)`. -/
theorem v5_z (k q : Fin 1024) (hq : q.val + 1024 < 2048) :
    (V (F := Ideal) m c main_v5 : S1024x2048.Idx → EReal) (ix2 k (⟨q.val + 1024, hq⟩ : Fin 2048))
      = (m ((c : Thread nD τ).loc main_arg8) : S1024x1024.Idx → EReal) (ix2 q k) := by
  rw [v5_eq, truncf_apply]
  exact stackT_right _ _ Facts₀.concatenates_S1024x1024_S1024x1024_S2048x1024_d0
    Facts₀.transposes_S2048x1024_S1024x2048_1_0 k q hq

/-- The input-side candidate weights transposed: entry `(k, q)` is `W_in (q, k)`. -/
theorem v7 (k q : Fin 1024) :
    (V (F := Ideal) m c main_v7 : S1024x1024.Idx → EReal) (ix2 k q)
      = (m ((c : Thread nD τ).loc main_arg10) : S1024x1024.Idx → EReal) (ix2 q k) := by
  rw [v7_eq]
  exact transpose_ab_ba_apply _ _ k q

/-- The state-side candidate weights transposed: entry `(k, q)` is `W_hn (q, k)`. -/
theorem v9 (k q : Fin 1024) :
    (V (F := Ideal) m c main_v9 : S1024x1024.Idx → EReal) (ix2 k q)
      = (m ((c : Thread nD τ).loc main_arg12) : S1024x1024.Idx → EReal) (ix2 q k) := by
  rw [v9_eq]
  exact transpose_ab_ba_apply _ _ k q

/-- The input-side bias row: entry `(0, q)`, `q < 1024`, is the reset bias `b_ir q`. -/
theorem v11_r (q : Fin 1024) (hq : q.val < 2048) :
    (V (F := Ideal) m c main_v11 : S1x2048.Idx → EReal) (ix2 (0 : Fin 1) (⟨q.val, hq⟩ : Fin 2048))
      = (m ((c : Thread nD τ).loc main_arg3) : S1024.Idx → EReal) (ix1 q) := by
  rw [v11_eq]
  exact rowCat_left _ _ _ _ q hq

/-- … and entry `(0, q + 1024)` is the update bias `b_iz q`. -/
theorem v11_z (q : Fin 1024) (hq : q.val + 1024 < 2048) :
    (V (F := Ideal) m c main_v11 : S1x2048.Idx → EReal) (ix2 (0 : Fin 1) (⟨q.val + 1024, hq⟩ : Fin 2048))
      = (m ((c : Thread nD τ).loc main_arg7) : S1024.Idx → EReal) (ix1 q) := by
  rw [v11_eq]
  exact rowCat_right _ _ _ _ q hq

/-- The state-side bias row: entry `(0, q)`, `q < 1024`, is the reset bias `b_hr q`. -/
theorem v13_r (q : Fin 1024) (hq : q.val < 2048) :
    (V (F := Ideal) m c main_v13 : S1x2048.Idx → EReal) (ix2 (0 : Fin 1) (⟨q.val, hq⟩ : Fin 2048))
      = (m ((c : Thread nD τ).loc main_arg5) : S1024.Idx → EReal) (ix1 q) := by
  rw [v13_eq]
  exact rowCat_left _ _ _ _ q hq

/-- … and entry `(0, q + 1024)` is the update bias `b_hz q`. -/
theorem v13_z (q : Fin 1024) (hq : q.val + 1024 < 2048) :
    (V (F := Ideal) m c main_v13 : S1x2048.Idx → EReal) (ix2 (0 : Fin 1) (⟨q.val + 1024, hq⟩ : Fin 2048))
      = (m ((c : Thread nD τ).loc main_arg9) : S1024.Idx → EReal) (ix1 q) := by
  rw [v13_eq]
  exact rowCat_right _ _ _ _ q hq

/-- The input-side candidate bias as one row: entry `(0, q)` is `b_in q`. -/
theorem v14 (q : Fin 1024) :
    (V (F := Ideal) m c main_v14 : S1x1024.Idx → EReal) (ix2 (0 : Fin 1) q)
      = (m ((c : Thread nD τ).loc main_arg11) : S1024.Idx → EReal) (ix1 q) := by
  rw [v14_eq]
  exact shapeCast_a_1a_apply (a := 1024) _ _ (0 : Fin 1) q

/-- The state-side candidate bias as one row: entry `(0, q)` is `b_hn q`. -/
theorem v15 (q : Fin 1024) :
    (V (F := Ideal) m c main_v15 : S1x1024.Idx → EReal) (ix2 (0 : Fin 1) q)
      = (m ((c : Thread nD τ).loc main_arg13) : S1024.Idx → EReal) (ix1 q) := by
  rw [v15_eq]
  exact shapeCast_a_1a_apply (a := 1024) _ _ (0 : Fin 1) q

end Cert.KernelArrays

end
-- ==== Proof.KernelCell.lean ====
/-
  The kernel's result array is the cell of the launch arrays.

  The launch has 64 grid points; point `t` stages rows `512 t … 512 t + 511` of the input and of the previous state, the
  whole of each prepared weight and bias array, and writes back rows `512 t … 512 t + 511` of the result. The prepared
  arrays are the two fused weights (the reset matrix and the update matrix stacked, transposed: column `q` holds row `q`
  of the reset matrix, column `q + 1024` row `q` of the update matrix), the two candidate weights transposed, and the
  bias vectors laid out as rows. So what point `t` writes back at `(a, q)` is the cell at row `512 t + a`, feature `q`,
  the blocks cover the result array, and the array after the run is the cell of the fourteen launch arrays.
-/
import proofs.«176661_j78039555768457_2_alg».proof.Proof.Gen.KernelIdeal.Value
import proofs.«176661_j78039555768457_2_alg».proof.Proof.CellSpec
import proofs.«176661_j78039555768457_2_alg».proof.Proof.BlockEntry
import proofs.«176661_j78039555768457_2_alg».proof.Proof.BlockReads
import proofs.«176661_j78039555768457_2_alg».proof.Proof.KernelArrays
import Idealize.ShloMosaic.Lib.Pipeline.Value
import Idealize.ShloMosaic.Lib.ValueIdx

noncomputable section

namespace Cert.KernelCell

open Cert.KernelIdeal Cert.KernelIdeal.Gen Idealize.ShloMosaic Idealize.ShloMosaic.TcCoe Idealize.SL.Sem Idealize.ShloMosaic.ValueIdx
open Idealize.ShloMosaic.Pipeline (Dat)
open Cert.Block Cert.BlockReads Cert.KernelArrays

variable (m : (ℓ : Loc nD τ sig) → Buf (Elt Ideal) ℓ) (ρ : Dev nD → PrngReg)

/-- The cell of core `c`'s fourteen launch arrays. -/
abbrev result (c : Dev nD) : Buf (Elt Ideal) ((c : Thread nD τ).loc main_v16) :=
  Cert.Cell.cell (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11))
    (m ((c : Thread nD τ).loc main_arg12)) (m ((c : Thread nD τ).loc main_arg13))

theorem hz : (![0, 0] : Fin 2 → Nat) = fun _ => 0 := funext fun a => by fin_cases a <;> rfl

/-- WHAT POINT `t` WRITES BACK is block `t` of the cell. -/
theorem flushed_eq (c : Dev nD) (t : Fin cfg0.N) :
    (dats m 0 c).flushed 10 t = ((cfg0.win 10).blk t).view.read (Elt Ideal) (result m c) := by
  show (cfg0.win 10).cut (grid0.coords t) ((dats m 0 c).after 10 t) = _
  rw [after0_10]
  unfold out0_10
  simp only [View.ld_unit_zero (S := S512x1024) hz, View.ld_unit_zero (S := S1024x2048) hz, View.ld_unit_zero (S := S1x2048) hz,
    View.ld_unit_zero (S := S1024x1024) hz, View.ld_unit_zero (S := S1x1024) hz]
  funext y
  obtain ⟨a, q, rfl⟩ : ∃ (a : Fin 512) (q : Fin 1024), y = ix2 a q := ⟨y 0, y 1, eq_ix2 y⟩
  refine (Cert.KernelIdeal.Value.canon10_eq (iblk m c 0 t) (iblk m c 1 t) (iblk m c 2 t) (iblk m c 6 t) (iblk m c 4 t) (iblk m c 8 t)
    (iblk m c 3 t) (iblk m c 7 t) (iblk m c 5 t) (iblk m c 9 t) (ix2 a q)).trans ?_
  refine (block_eq_cell (iblk m c 0 t) (iblk m c 1 t) (iblk m c 2 t) (iblk m c 6 t) (iblk m c 4 t) (iblk m c 8 t)
    (iblk m c 3 t) (iblk m c 7 t) (iblk m c 5 t) (iblk m c 9 t)
    (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11))
    (m ((c : Thread nD τ).loc main_arg12)) (m ((c : Thread nD τ).loc main_arg13))
    a q (row t a)
    (fun k => blk0 m c t a k) (fun k => blk1 m c t a k)
    (fun k => (blk2 m c t k (rcol q)).trans (v3_r m c k q (rcol q).isLt)) (fun k => (blk2 m c t k (zcol q)).trans (v3_z m c k q (zcol q).isLt))
    ((blk6 m c t (rcol q)).trans (v11_r m c q (rcol q).isLt)) ((blk6 m c t (zcol q)).trans (v11_z m c q (zcol q).isLt))
    (fun k => (blk4 m c t k (rcol q)).trans (v5_r m c k q (rcol q).isLt)) (fun k => (blk4 m c t k (zcol q)).trans (v5_z m c k q (zcol q).isLt))
    ((blk8 m c t (rcol q)).trans (v13_r m c q (rcol q).isLt)) ((blk8 m c t (zcol q)).trans (v13_z m c q (zcol q).isLt))
    (fun k => (blk3 m c t k q).trans (v7 m c k q)) ((blk7 m c t q).trans (v14 m c q))
    (fun k => (blk5 m c t k q).trans (v9 m c k q)) ((blk9 m c t q).trans (v15 m c q))).trans ?_
  show Cert.Cell.cellAt _ _ _ _ _ _ _ _ _ _ _ _ _ _ (row t a) q = result m c (((cfg0.win 10).blk t).view.emb (ix2 a q))
  rw [emb10]
  rfl

/-- So the result array after the run is the cell (the 64 blocks cover it). -/
theorem final (c : Dev nD) : (dats m 0 c).arrAt 10 cfg0.N = result m c :=
  (dats m 0 c).arrAt_eq_of_cover 10 (result m c) (fun t _ => flushed_eq m c t) cover10

/-- The run, read: the result array at the cell of the launch arrays, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩)
    (Cert.KernelIdeal.Value.run_blocks m ρ)

end Cert.KernelCell

end
-- ==== Proof.lean ====
/-
  The certificate of the gated recurrent cell: the kernel against its plain reference, on the extended reals.

  Both programs compute, for 32768 rows of 1024 features, with x the input, h the previous state and six affine maps
  lin X W b = X Wᵀ + b,
      r = logistic (lin x W_ir b_ir + lin h W_hr b_hr),      z = logistic (lin x W_iz b_iz + lin h W_hz b_hz),
      n = tanh (lin x W_in b_in + r * lin h W_hn b_hn),      out = (1 - z) * n + z * h,
  and return that array twice. The kernel stacks the reset and update weights into one matrix per side and slices the
  fused gate block; it rounds the matrix operands to a narrower format, which is the identity on the extended reals; its
  matrix products run from a zero accumulator; its logistic function is one operation where the reference spells
  1 / (1 + exp (-t)). None of this changes the value at any entry, and no law beyond the definitions is used, so the
  precondition (finite inputs) is never opened.

  The three frames: the two kernel programs' are the generated frame proofs; the reference has no kernel launch and its
  frame is its generated run with the results dropped. The idealization rewrote nothing, so `preserves` is `True`.
  `algebraic`: the kernel's result array ends at the cell of its launch arrays (Proof/KernelCell.lean, over the generated
  value leg), the reference's at the same cell of its own (Proof/RefCell.lean, over the generated run and reads), and
  the launch arrays agree.
-/
import proofs.«176661_j78039555768457_2_alg».proof.Defs
import proofs.«176661_j78039555768457_2_alg».proof.Proof.Gen.Kernel
import proofs.«176661_j78039555768457_2_alg».proof.Proof.Gen.Kernel.Skeleton
import proofs.«176661_j78039555768457_2_alg».proof.Proof.Gen.Kernel.Launch
import proofs.«176661_j78039555768457_2_alg».proof.Proof.Gen.Kernel.Points
import proofs.«176661_j78039555768457_2_alg».proof.Proof.Gen.Kernel.Frame
import proofs.«176661_j78039555768457_2_alg».proof.Proof.Gen.KernelIdeal
import proofs.«176661_j78039555768457_2_alg».proof.Proof.Gen.KernelIdeal.Skeleton
import proofs.«176661_j78039555768457_2_alg».proof.Proof.Gen.KernelIdeal.Launch
import proofs.«176661_j78039555768457_2_alg».proof.Proof.Gen.KernelIdeal.Points
import proofs.«176661_j78039555768457_2_alg».proof.Proof.Gen.KernelIdeal.Frame
import proofs.«176661_j78039555768457_2_alg».proof.Proof.Gen.ReferenceIdeal
import proofs.«176661_j78039555768457_2_alg».proof.Proof.Gen.Pre_finite_inputs
import proofs.«176661_j78039555768457_2_alg».proof.Proof.Gen.KernelIdeal.Value
import proofs.«176661_j78039555768457_2_alg».proof.Proof.Gen.ReferenceIdeal.Run
import proofs.«176661_j78039555768457_2_alg».proof.Proof.Gen.ReferenceIdeal.Read
import proofs.«176661_j78039555768457_2_alg».proof.Proof.CellSpec
import proofs.«176661_j78039555768457_2_alg».proof.Proof.RefCell
import proofs.«176661_j78039555768457_2_alg».proof.Proof.KernelCell
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_k : Cert.frame_Kernel :=
  fun m ρ _ => Cert.Kernel.Gen.frame m ρ

/-- The same for the idealized kernel. -/
theorem frame_ki : Cert.frame_KernelIdeal :=
  fun m ρ _ => Cert.KernelIdeal.Gen.frame m ρ

/-- The reference has no kernel launch: its frame is its generated run with the two results dropped. -/
theorem frame_ri : Cert.frame_ReferenceIdeal :=
  fun m ρ _ => (θ_run Cert.ReferenceIdeal.defs _ _).mono (fun _ h c => (h c).2.2)
    (Cert.ReferenceIdeal.Value.run (F := Ideal) m ρ)

/-- Both idealized programs end with the cell of the (agreeing) launch arrays in both results. -/
theorem algebraic : Cert.algebraic_KernelIdeal_ReferenceIdeal := by
  intro m ρ m' ρ' _ hagree
  refine ⟨fun c => Cert.KernelCell.result m c, fun c => Cert.KernelCell.result m c, ?_, ?_⟩
  · exact (θ_run Cert.KernelIdeal.defs _ _).mono (fun _ h c => ⟨(h c).1, (h c).1, (h c).2⟩) (Cert.KernelCell.run m ρ)
  · refine (θ_run Cert.ReferenceIdeal.defs _ _).mono (fun _ h c => ?_) (Cert.ReferenceIdeal.Value.run (F := Ideal) m' ρ')
    obtain ⟨a0, a1, a2, a3, a4, a5, a6, a7, a8, a9, a10, a11, a12, a13⟩ := hagree c
    have e := (h c).1
    rw [Cert.ReferenceIdeal.Read.val_main_v51_eq, Cert.RefCell.ref_eq, a0, a1, a2, a3, a4, a5, a6, a7, a8, a9, a10, a11, a12, a13] at e
    exact ⟨e, e, (h c).2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
